-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .bf16⟩
  | .local _ .vmem, ⟨10, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v23 : BitVec 32 := Scalar.muli arg1 c400_i32
  let v24 : Index := Scalar.indexCast v23
  let c0_14 : Index := 0#32
  ![v24.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  k0_off1_packedbf16 : ∀ i : grid0.Coords, ∀ (k0_h2 : k0_cond2 i = 1#1), (Rect.unit (s := S10000x128) (k0_off1 i) S400x128.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.ScheduleBits.lean ====
/-
  The grid of the two-phase graph-convolution kernel, decided once: 50 points, phase 0 at points 0-24 (the row block is the
  point's number), phase 1 at points 25-49 (the row block is the number minus 25). The three branches of the body hold
  exactly at point 0, below point 25, and from point 25 on. The result's window is idle through phase 0 and is written
  back after every point of phase 1; its block at point 25 + b is row block b. The six input windows are never idle.
-/
import proofs.«143349_g27754078666885_cont_9to1_584_18_alg».proof.Proof.Gen.Kernel.Frame
import proofs.«143349_g27754078666885_cont_9to1_584_18_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's three branch conditions, from the grid coordinates -/

/-- First point of the grid: both coordinates zero. -/
abbrev bc0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- Phase 0. -/
abbrev bc1 (i : grid0.Coords) : Prop := k0_cond2 i = 1#1
/-- Phase 1. -/
abbrev bc2 (i : grid0.Coords) : Prop := k0_cond3 i = 1#1

theorem hbc0 : ∀ t : Fin cfg0.N, bc0 (grid0.coords t) ↔ t.val % 50 = 0 :=
  (by decide +kernel : ∀ t : Fin grid0.N, bc0 (grid0.coords t) ↔ t.val % 50 = 0)
theorem hbc1 : ∀ t : Fin cfg0.N, bc1 (grid0.coords t) ↔ t.val < 25 :=
  (by decide +kernel : ∀ t : Fin grid0.N, bc1 (grid0.coords t) ↔ t.val < 25)
theorem hbc2 : ∀ t : Fin cfg0.N, bc2 (grid0.coords t) ↔ 25 ≤ t.val :=
  (by decide +kernel : ∀ t : Fin grid0.N, bc2 (grid0.coords t) ↔ 25 ≤ t.val)

/-- The row-block coordinate of point t. -/
theorem coord1 : ∀ t : Fin cfg0.N, (grid0.coords t 1).val = t.val % 25 :=
  (by decide +kernel : ∀ t : Fin grid0.N, (grid0.coords t 1).val = t.val % 25)

/-! ## Idle points and write-backs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The result's window is idle exactly through phase 0, -/
theorem idle6 : ∀ t : Fin cfg0.N, cfg0.idle 6 (grid0.coords t) = decide (t.val < 25) :=
  (by decide +kernel : ∀ t : Fin grid0.N, cfg0.idle 6 (grid0.coords t) = decide (t.val < 25))
/-- and written back exactly after the points of phase 1, -/
theorem flush6 : ∀ t : Fin cfg0.N, (cfg0.win 6).flush t = decide (25 ≤ t.val) :=
  (by decide +kernel : ∀ t : Fin grid0.N, win0_6.flush t = decide (25 ≤ t.val))
/-- where its block is row block t - 25, all columns. -/
theorem index6_0 : ∀ t : Fin cfg0.N, 25 ≤ t.val → win0_6.index t (0 : Fin 2) = t.val - 25 :=
  (by decide +kernel : ∀ t : Fin grid0.N, 25 ≤ t.val → win0_6.index t (0 : Fin 2) = t.val - 25)
theorem index6_1 : ∀ t : Fin cfg0.N, win0_6.index t (1 : Fin 2) = 0 :=
  (by decide +kernel : ∀ t : Fin grid0.N, win0_6.index t (1 : Fin 2) = 0)
/-- The adjacency window's block at point t is row block t mod 25, all columns. -/
theorem index0_0 : ∀ t : Fin cfg0.N, win0_0.index t (0 : Fin 2) = t.val % 25 :=
  (by decide +kernel : ∀ t : Fin grid0.N, win0_0.index t (0 : Fin 2) = t.val % 25)
theorem index0_1 : ∀ t : Fin cfg0.N, win0_0.index t (1 : Fin 2) = 0 :=
  (by decide +kernel : ∀ t : Fin grid0.N, win0_0.index t (1 : Fin 2) = 0)

/-! ## The staging and scratch memrefs the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
/-- The two scratch buffers: the first layer's projected features, and the second layer's, filled one row block per point. -/
abbrev sc0 : Memref sig .tc .vmem S10000x128 .bf16 := Memref.whole cc0_scratch0
abbrev sc1 : Memref sig .tc .vmem S10000x128 .bf16 := Memref.whole cc0_scratch1

/-- What the launch hands the region besides the windows: both scratch buffers at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.Kernel.Body

end
-- ==== Proof.RunsBits.lean ====
/-
  The kernel body run once in each of its three cases, on any whole staging memrefs.

  * first point of phase 0: the first scratch buffer receives  x · W1  (whole), and rows 400 b .. 400 b + 399 of the second
    receive  max (A_b · (x · W1) + b1, 0) · W2  for the point's adjacency row block A_b;
  * a later point of phase 0: the first scratch buffer is kept, the second receives the point's 400 rows as above, computed
    from the kept first buffer;
  * a point of phase 1: both scratch buffers are kept, the result's staging block receives  max (A_b · S + b2, 0)  for the
    second scratch buffer's contents S.
  In phase 0 the result's staging block is handed back as it was found.
-/
import proofs.«143349_g27754078666885_cont_9to1_584_18_alg».proof.Proof.ScheduleBits
import Idealize.ShloMosaic.Lib.WritesUnit
import Idealize.ShloMosaic.Lib.ValueIdx
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

theorem hz2 : (![0, 0] : Fin 2 → ℕ) = fun _ => 0 := by funext a; fin_cases a <;> rfl

/-- `new` is `old` with the 400 rows from row `o` on replaced by the rows of `pay`. -/
def SlicePut (o : ℕ) (old new : Vec F S10000x128 .bf16) (pay : Vec F S400x128 .bf16) : Prop :=
  ∀ y : S10000x128.Idx,
    (∀ r : Fin 400, (y 0).val = o + r.val → new y = pay (ix2 r (y 1))) ∧
    ((y 0).val < o ∨ o + 400 ≤ (y 0).val → new y = old y)

/-- One store of 400 whole rows at the point's row offset, read back: the stored rows inside, the old contents outside. -/
theorem slicePut_of_writes (i : grid0.Coords) (h1 : bc1 i) (arg10 : Memref sig .tc .vmem S10000x128 .bf16) (harg10 : arg10.IsWhole)
    (xs1 : Vec F S10000x128 .bf16) (pay pay' : Vec F S400x128 .bf16) (hp : pay' = pay) :
    SlicePut (400 * (i 1).val) xs1
      (View.read (Elt F) arg10.view (arg10.view.writes (Elt F) (harg10.unread xs1)
        [⟨Rect.unit (s := S10000x128) (k0_off1 i) S400x128.size (k0_off1_inb i h1), pay'⟩])) pay := by
  subst hp
  intro y
  refine ⟨fun r hr => ?_, fun h => ?_⟩
  · exact View.read_writes_cons_rows_of_mem arg10.view (harg10.unread xs1) (k0_off1_inb i h1) pay' [] y (ix2 r (y 1)) (k0_off1_eq i) hr rfl
  · rw [View.read_writes_cons_rows_of_not_mem arg10.view (harg10.unread xs1) (k0_off1_inb i h1) pay' [] y (k0_off1_eq i) rfl h]
    exact congrFun (harg10.read_unread xs1) y

/-- A load of a whole buffer held at the contents that read X reads X. -/
theorem ld0 {S : Shape} {e : EltTy} (m : Memref sig .tc .vmem S e) (h : m.IsWhole) (X : S.Idx → Elt F e) {off : Fin S.rank → ℕ}
    (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-- One store of a whole buffer, read back: the stored value, whatever the buffer held. -/
theorem read_whole_store {S : Shape} {e : EltTy} (m : Memref sig .tc .vmem S e) (f : m.view.ty.Contents (Elt F)) {off : Fin S.rank → ℕ}
    (hz : off = fun _ => 0) (inb : ∀ a, off a + S.size a ≤ S.size a) (w : S.Idx → Elt F e) :
    View.read (Elt F) m.view (m.view.writes (Elt F) f [(⟨Rect.unit off S.size inb, w⟩ : View.Piece (Elt F) S e)]) = w := by
  subst hz; funext y
  have h := View.read_writes_cons_emb m.view f (Rect.whole S) w [] y
  rw [Rect.emb_whole_apply] at h
  exact h

set_option maxHeartbeats 1000000 in
/-- A later point of phase 0. -/
theorem run_B (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬bc0 i) (hc1 : bc1 i) (hc2 : ¬bc2 i)
    (x0 : Vec F S400x10000 .f32) (x1 : Vec F S10000x128 .f32) (x2 : Vec F S128x128 .f32) (x3 : Vec F S1x128 .f32) (x4 : Vec F S128x128 .f32) (x5 : Vec F S1x128 .f32) (x6 : Vec F S400x128 .f32) (xs0 xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0
            ∗ (∃ d', ⌜SlicePut (400 * (i 1).val) xs1 d' (k0_pay2 x0 xs0 x3 x4)⌝ ∗ owns (c : Thread nD τ) arg10 fullShare d')) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; swap
  · iexists _; isplitr; swap; · iexact HS1
    ipureintro; rfl
  ipureintro
  refine slicePut_of_writes i hc1 arg10 harg10 xs1 _ _ ?_
  rw [ld0 arg2 harg2 x0 hz2, ld0 arg9 harg9 xs0 hz2, ld0 arg5 harg5 x3 hz2, ld0 arg6 harg6 x4 hz2]

set_option maxHeartbeats 1000000 in
/-- A point of phase 1. -/
theorem run_C (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬bc0 i) (hc1 : ¬bc1 i) (hc2 : bc2 i)
    (x0 : Vec F S400x10000 .f32) (x1 : Vec F S10000x128 .f32) (x2 : Vec F S128x128 .f32) (x3 : Vec F S1x128 .f32) (x4 : Vec F S128x128 .f32) (x5 : Vec F S1x128 .f32) (xs0 xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 xs1 x5) ∗ owns (c : Thread nD τ) arg9 fullShare xs0
            ∗ owns (c : Thread nD τ) arg10 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [ld0 arg2 harg2 x0 hz2, ld0 arg10 harg10 xs1 hz2, ld0 arg7 harg7 x5 hz2]
    exact read_whole_store arg8 f6 hz2 _ _
  isplitl [HS0]
  · iexists _; isplitr; · ipureintro; exact harg9.read_unread _
    iexact HS0
  iexists _; isplitr; · ipureintro; exact harg10.read_unread _
  iexact HS1

set_option maxHeartbeats 1000000 in
/-- The first point. -/
theorem run_A (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : bc0 i) (hc1 : bc1 i) (hc2 : ¬bc2 i)
    (x0 : Vec F S400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x1 x2)
            ∗ (∃ d', ⌜SlicePut (400 * (i 1).val) xs1 d' (k0_pay2 x0 (k0_pay1 x1 x2) x3 x4)⌝ ∗ owns (c : Thread nD τ) arg10 fullShare d')) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    sl_unfold_run_names
    rw [ld0 arg3 harg3 x1 hz2, ld0 arg4 harg4 x2 hz2]
    exact read_whole_store arg9 fs0 hz2 _ _
  iexists _; isplitr; swap
  · iexists _; isplitr; swap; · iexact HS1
    ipureintro; rfl
  ipureintro
  refine slicePut_of_writes i hc1 arg10 harg10 xs1 _ _ ?_
  sl_unfold_run_names
  rw [View.readCov_unit_zero arg9.view hz2, ld0 arg2 harg2 x0 hz2, ld0 arg3 harg3 x1 hz2, ld0 arg4 harg4 x2 hz2, ld0 arg5 harg5 x3 hz2, ld0 arg6 harg6 x4 hz2]

end Cert.Kernel.Body

end
-- ==== Proof.BodyBits.lean ====
/-
  The proof data of the two-phase kernel's pipeline and its body obligation, at any float instance.

  After the first point the first scratch buffer holds  S1 = x · W1  for good. The second scratch buffer is filled one
  row block per point of phase 0: before point n (0 < n ≤ 25) its rows below 400 n hold  S2 , where row 400 b + r of S2
  is row r of  max (A_b · S1 + b1, 0) · W2  for the adjacency row block A_b of point b; from point 25 on it holds S2
  everywhere. The result's staging block is idle through phase 0 (handed back as found, never written back) and at
  point 25 + b holds  max (A_b · S2 + b2, 0) , which is then written back as row block b of the result.
-/
import proofs.«143349_g27754078666885_cont_9to1_584_18_alg».proof.Proof.RunsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N50 : cfg0.N = 50 := N_0

/-- The grid's first point. -/
def t0 : Fin cfg0.N := ⟨0, by rw [N50]; omega⟩

/-- What the first scratch buffer holds from the first point on:  x · W1 . -/
def S1 (c : Dev nD) : Vec F S10000x128 .bf16 := k0_pay1 (iblk m c 1 t0) (iblk m c 2 t0)

/-- The 400 rows point t of phase 0 stores into the second scratch buffer. -/
def slice (c : Dev nD) (t : Fin cfg0.N) : Vec F S400x128 .bf16 := k0_pay2 (iblk m c 0 t) (S1 m c) (iblk m c 3 t) (iblk m c 4 t)

/-- The point of phase 0 that fills row v, and v's position within that point's rows. -/
def rowPt (v : ℕ) (hv : v < 10000) : Fin cfg0.N := ⟨v / 400, by rw [N50]; omega⟩
def rowIn (v : ℕ) : Fin 400 := ⟨v % 400, Nat.mod_lt _ (by decide)⟩

/-- What the second scratch buffer holds once phase 0 is over. -/
def S2 (c : Dev nD) : Vec F S10000x128 .bf16 :=
  fun y => slice m c (rowPt (y 0).val (y 0).isLt) (ix2 (rowIn (y 0).val) (y 1))

theorem S2_at (c : Dev nD) (t : Fin cfg0.N) (ht : t.val < 25) (r : Fin 400) (y : S10000x128.Idx) (hy : (y 0).val = 400 * t.val + r.val) :
    S2 m c y = slice m c t (ix2 r (y 1)) := by
  have e1 : rowPt (y 0).val (y 0).isLt = t := Fin.ext (by show (y 0).val / 400 = t.val; omega)
  have e2 : rowIn (y 0).val = r := Fin.ext (by show (y 0).val % 400 = r.val; omega)
  show slice m c (rowPt (y 0).val (y 0).isLt) (ix2 (rowIn (y 0).val) (y 1)) = _
  rw [e1, e2]

/-- One more point of phase 0 fills the next 400 rows. -/
theorem filled_step (c : Dev nD) (t : Fin cfg0.N) (ht : t.val < 25) (d d' : Vec F S10000x128 .bf16)
    (hd : ∀ y : S10000x128.Idx, (y 0).val < 400 * t.val → d y = S2 m c y)
    (hp : SlicePut (400 * (grid0.coords t 1).val) d d' (slice m c t)) :
    ∀ y : S10000x128.Idx, (y 0).val < 400 * (t.val + 1) → d' y = S2 m c y := by
  intro y hy
  have hc : (grid0.coords t 1).val = t.val := by rw [coord1 t]; exact Nat.mod_eq_of_lt ht
  rw [hc] at hp
  by_cases hlt : (y 0).val < 400 * t.val
  · rw [(hp y).2 (Or.inl hlt)]; exact hd y hlt
  · have hr : (y 0).val - 400 * t.val < 400 := by omega
    have hy' : (y 0).val = 400 * t.val + (⟨(y 0).val - 400 * t.val, hr⟩ : Fin 400).val := by
      show (y 0).val = 400 * t.val + ((y 0).val - 400 * t.val); omega
    rw [(hp y).1 ⟨(y 0).val - 400 * t.val, hr⟩ hy']
    exact (S2_at m c t ht ⟨_, hr⟩ y hy').symm

/-- The result's block at point t of phase 1. -/
def out6 (c : Dev nD) (t : Fin cfg0.N) : Vec F S400x128 .f32 := k0_pay3 (iblk m c 0 t) (S2 m c) (iblk m c 5 t)

/-! ## The invariant between points -/

/-- Before the first point: both scratch buffers at anything. Before point n > 0: the first at S1, the second at S2 on
    its rows below 400 n. -/
def Phi (c : Dev nD) : (n : ℕ) → n ≤ cfg0.N → sProp 𝕄
  | 0, _ => Pipeline.ΦA spec0 c
  | n + 1, _ => iprop(iprop(owns (c : Thread nD τ) sc0 fullShare (S1 m c) ∗ (∃ d, ⌜∀ y : S10000x128.Idx, (y 0).val < 400 * (n + 1) → d y = S2 m c y⌝ ∗ owns (c : Thread nD τ) sc1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) sc0 fullShare (S1 m c) ∗ (∃ d, ⌜∀ y : S10000x128.Idx, (y 0).val < 400 * (n + 1) → d y = S2 m c y⌝ ∗ owns (c : Thread nD τ) sc1 fullShare d)) ∗ (∃ r, prngReg c r)) := rfl

theorem Phi_pos (c : Dev nD) (n : ℕ) (h : n ≤ cfg0.N) (hz : n ≠ 0) :
    Phi m c n h = iprop(iprop(owns (c : Thread nD τ) sc0 fullShare (S1 m c) ∗ (∃ d, ⌜∀ y : S10000x128.Idx, (y 0).val < 400 * n → d y = S2 m c y⌝ ∗ owns (c : Thread nD τ) sc1 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out6 (c : Dev nD) (t : Fin cfg0.N) : (dats m 0 c).after 6 t = out6 m c t := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- At every point the case the point is in runs from the invariant and the windows' blocks to the next invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare (iblk m c 0 t) from by
    unfold Dat.leavesExact; rw [live0 t, after_in0]]
  rw [show (dats m 0 c).leavesExact 1 t = owns (c : Thread nD τ) (ms1 t) fullShare (iblk m c 1 t) from by
    unfold Dat.leavesExact; rw [live1 t, after_in1]]
  rw [show (dats m 0 c).leavesExact 2 t = owns (c : Thread nD τ) (ms2 t) fullShare (iblk m c 2 t) from by
    unfold Dat.leavesExact; rw [live2 t, after_in2]]
  rw [show (dats m 0 c).leavesExact 3 t = owns (c : Thread nD τ) (ms3 t) fullShare (iblk m c 3 t) from by
    unfold Dat.leavesExact; rw [live3 t, after_in3]]
  rw [show (dats m 0 c).leavesExact 4 t = owns (c : Thread nD τ) (ms4 t) fullShare (iblk m c 4 t) from by
    unfold Dat.leavesExact; rw [live4 t, after_in4]]
  rw [show (dats m 0 c).leavesExact 5 t = owns (c : Thread nD τ) (ms5 t) fullShare (iblk m c 5 t) from by
    unfold Dat.leavesExact; rw [live5 t, after_in5]]
  have hN : t.val < 50 := lt_of_lt_of_eq t.isLt N50
  by_cases h1 : t.val < 25
  · -- phase 0: the result's window is idle and not written back
    have h2 : ¬25 ≤ t.val := by omega
    rw [(dats m 0 c).leavesExact_idle 6 t (by rw [idle6 t]; exact decide_eq_true h1) (by rw [flush6 t]; exact decide_eq_false h2)]
    by_cases h0 : t.val % 50 = 0
    · -- the first point
      obtain rfl : t = t0 := Fin.ext (by show t.val = 0; omega)
      rw [Phi_castSucc m c t0, Phi_zero m c _ _ (show (t0 : Fin cfg0.N).val = 0 from rfl), PhiA_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t0) _ _ _ _ _ _ _ _ _ _ _ _ _ _ _ _ _ _ ((hbc0 t0).mpr h0) ((hbc1 t0).mpr h1) (fun h => h2 ((hbc2 t0).mp h)) (iblk m c 0 t0) (iblk m c 1 t0) (iblk m c 2 t0) (iblk m c 3 t0) (iblk m c 4 t0) (iblk m c 5 t0) ((dats m 0 c).before 6 t0 d6) e1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, HS0, ⟨%d', %hd', HS1⟩⟩
      isplitl [HS0 HS1 Hg]
      · isplitl [HS0 HS1]
        · isplitl [HS0]
          · iexact HS0
          iexists d'; isplitr
          · ipureintro
            exact filled_step m c t0 h1 e1 d' (fun y hy => absurd hy (by show ¬(y 0).val < 400 * 0; omega)) hd'
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
    · -- a later point of phase 0
      have hz : t.val ≠ 0 := by omega
      rw [Phi_castSucc m c t, Phi_pos m c _ _ hz]
      iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ _ _ _ _ _ _ _ _ _ _ _ _ _ _ _ _ _ (fun h => h0 ((hbc0 t).mp h)) ((hbc1 t).mpr h1) (fun h => h2 ((hbc2 t).mp h)) (iblk m c 0 t) (iblk m c 1 t) (iblk m c 2 t) (iblk m c 3 t) (iblk m c 4 t) (iblk m c 5 t) ((dats m 0 c).before 6 t d6) (S1 m c) e1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%d', %hd', HS1⟩⟩
      isplitl [HS0 HS1 Hg]
      · isplitl [HS0 HS1]
        · isplitl [HS0]
          · iexact HS0
          iexists d'; isplitr
          · ipureintro
            exact filled_step m c t h1 e1 d' he1 hd'
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
  · -- phase 1: the second scratch buffer is full; the result's block is stored whole
    have h2 : 25 ≤ t.val := by omega
    have h0 : ¬t.val % 50 = 0 := by omega
    have hz : t.val ≠ 0 := by omega
    rw [show (dats m 0 c).leavesExact 6 t = owns (c : Thread nD τ) (ms6 t) fullShare (out6 m c t) from by
      unfold Dat.leavesExact; rw [idle6 t, decide_eq_false h1, after_out6]]
    rw [Phi_castSucc m c t, Phi_pos m c _ _ hz]
    iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : e1 = S2 m c := funext fun y => he1 y (by have hy : (y 0).val < 10000 := (y 0).isLt; omega)
    iapply (run_C c (grid0.coords t) _ _ _ _ _ _ _ _ _ _ _ _ _ _ _ _ _ _ (fun h => h0 ((hbc0 t).mp h)) (fun h => h1 ((hbc1 t).mp h)) ((hbc2 t).mpr h2) (iblk m c 0 t) (iblk m c 1 t) (iblk m c 2 t) (iblk m c 3 t) (iblk m c 4 t) (iblk m c 5 t) (S1 m c) (S2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists (S2 m c); isplitr
        · ipureintro; exact fun _ _ => rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives back both scratch buffers at some contents. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 50 := N50; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution terminates with every array of the pipeline at what the library computes from the proof
    data (the result: its entry contents overwritten block by block by what phase 1 left) and every other unscoped
    buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run's post read at the six argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.ScheduleIdeal.lean ====
/-
  The grid of the two-phase graph-convolution kernel, decided once: 50 points, phase 0 at points 0-24 (the row block is the
  point's number), phase 1 at points 25-49 (the row block is the number minus 25). The three branches of the body hold
  exactly at point 0, below point 25, and from point 25 on. The result's window is idle through phase 0 and is written
  back after every point of phase 1; its block at point 25 + b is row block b. The six input windows are never idle.
-/
import proofs.«143349_g27754078666885_cont_9to1_584_18_alg».proof.Proof.Gen.KernelIdeal.Frame
import proofs.«143349_g27754078666885_cont_9to1_584_18_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's three branch conditions, from the grid coordinates -/

/-- First point of the grid: both coordinates zero. -/
abbrev bc0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- Phase 0. -/
abbrev bc1 (i : grid0.Coords) : Prop := k0_cond2 i = 1#1
/-- Phase 1. -/
abbrev bc2 (i : grid0.Coords) : Prop := k0_cond3 i = 1#1

theorem hbc0 : ∀ t : Fin cfg0.N, bc0 (grid0.coords t) ↔ t.val % 50 = 0 :=
  (by decide +kernel : ∀ t : Fin grid0.N, bc0 (grid0.coords t) ↔ t.val % 50 = 0)
theorem hbc1 : ∀ t : Fin cfg0.N, bc1 (grid0.coords t) ↔ t.val < 25 :=
  (by decide +kernel : ∀ t : Fin grid0.N, bc1 (grid0.coords t) ↔ t.val < 25)
theorem hbc2 : ∀ t : Fin cfg0.N, bc2 (grid0.coords t) ↔ 25 ≤ t.val :=
  (by decide +kernel : ∀ t : Fin grid0.N, bc2 (grid0.coords t) ↔ 25 ≤ t.val)

/-- The row-block coordinate of point t. -/
theorem coord1 : ∀ t : Fin cfg0.N, (grid0.coords t 1).val = t.val % 25 :=
  (by decide +kernel : ∀ t : Fin grid0.N, (grid0.coords t 1).val = t.val % 25)

/-! ## Idle points and write-backs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The result's window is idle exactly through phase 0, -/
theorem idle6 : ∀ t : Fin cfg0.N, cfg0.idle 6 (grid0.coords t) = decide (t.val < 25) :=
  (by decide +kernel : ∀ t : Fin grid0.N, cfg0.idle 6 (grid0.coords t) = decide (t.val < 25))
/-- and written back exactly after the points of phase 1, -/
theorem flush6 : ∀ t : Fin cfg0.N, (cfg0.win 6).flush t = decide (25 ≤ t.val) :=
  (by decide +kernel : ∀ t : Fin grid0.N, win0_6.flush t = decide (25 ≤ t.val))
/-- where its block is row block t - 25, all columns. -/
theorem index6_0 : ∀ t : Fin cfg0.N, 25 ≤ t.val → win0_6.index t (0 : Fin 2) = t.val - 25 :=
  (by decide +kernel : ∀ t : Fin grid0.N, 25 ≤ t.val → win0_6.index t (0 : Fin 2) = t.val - 25)
theorem index6_1 : ∀ t : Fin cfg0.N, win0_6.index t (1 : Fin 2) = 0 :=
  (by decide +kernel : ∀ t : Fin grid0.N, win0_6.index t (1 : Fin 2) = 0)
/-- The adjacency window's block at point t is row block t mod 25, all columns. -/
theorem index0_0 : ∀ t : Fin cfg0.N, win0_0.index t (0 : Fin 2) = t.val % 25 :=
  (by decide +kernel : ∀ t : Fin grid0.N, win0_0.index t (0 : Fin 2) = t.val % 25)
theorem index0_1 : ∀ t : Fin cfg0.N, win0_0.index t (1 : Fin 2) = 0 :=
  (by decide +kernel : ∀ t : Fin grid0.N, win0_0.index t (1 : Fin 2) = 0)

/-! ## The staging and scratch memrefs the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
/-- The two scratch buffers: the first layer's projected features, and the second layer's, filled one row block per point. -/
abbrev sc0 : Memref sig .tc .vmem S10000x128 .bf16 := Memref.whole cc0_scratch0
abbrev sc1 : Memref sig .tc .vmem S10000x128 .bf16 := Memref.whole cc0_scratch1

/-- What the launch hands the region besides the windows: both scratch buffers at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.KernelIdeal.Body

end
-- ==== Proof.RunsIdeal.lean ====
/-
  The kernel body run once in each of its three cases, on any whole staging memrefs.

  * first point of phase 0: the first scratch buffer receives  x · W1  (whole), and rows 400 b .. 400 b + 399 of the second
    receive  max (A_b · (x · W1) + b1, 0) · W2  for the point's adjacency row block A_b;
  * a later point of phase 0: the first scratch buffer is kept, the second receives the point's 400 rows as above, computed
    from the kept first buffer;
  * a point of phase 1: both scratch buffers are kept, the result's staging block receives  max (A_b · S + b2, 0)  for the
    second scratch buffer's contents S.
  In phase 0 the result's staging block is handed back as it was found.
-/
import proofs.«143349_g27754078666885_cont_9to1_584_18_alg».proof.Proof.ScheduleIdeal
import Idealize.ShloMosaic.Lib.WritesUnit
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

theorem hz2 : (![0, 0] : Fin 2 → ℕ) = fun _ => 0 := by funext a; fin_cases a <;> rfl

/-- `new` is `old` with the 400 rows from row `o` on replaced by the rows of `pay`. -/
def SlicePut (o : ℕ) (old new : Vec F S10000x128 .bf16) (pay : Vec F S400x128 .bf16) : Prop :=
  ∀ y : S10000x128.Idx,
    (∀ r : Fin 400, (y 0).val = o + r.val → new y = pay (ix2 r (y 1))) ∧
    ((y 0).val < o ∨ o + 400 ≤ (y 0).val → new y = old y)

/-- One store of 400 whole rows at the point's row offset, read back: the stored rows inside, the old contents outside. -/
theorem slicePut_of_writes (i : grid0.Coords) (h1 : bc1 i) (arg10 : Memref sig .tc .vmem S10000x128 .bf16) (harg10 : arg10.IsWhole)
    (xs1 : Vec F S10000x128 .bf16) (pay pay' : Vec F S400x128 .bf16) (hp : pay' = pay) :
    SlicePut (400 * (i 1).val) xs1
      (View.read (Elt F) arg10.view (arg10.view.writes (Elt F) (harg10.unread xs1)
        [⟨Rect.unit (s := S10000x128) (k0_off1 i) S400x128.size (k0_off1_inb i h1), pay'⟩])) pay := by
  subst hp
  intro y
  refine ⟨fun r hr => ?_, fun h => ?_⟩
  · exact View.read_writes_cons_rows_of_mem arg10.view (harg10.unread xs1) (k0_off1_inb i h1) pay' [] y (ix2 r (y 1)) (k0_off1_eq i) hr rfl
  · rw [View.read_writes_cons_rows_of_not_mem arg10.view (harg10.unread xs1) (k0_off1_inb i h1) pay' [] y (k0_off1_eq i) rfl h]
    exact congrFun (harg10.read_unread xs1) y

/-- A load of a whole buffer held at the contents that read X reads X. -/
theorem ld0 {S : Shape} {e : EltTy} (m : Memref sig .tc .vmem S e) (h : m.IsWhole) (X : S.Idx → Elt F e) {off : Fin S.rank → ℕ}
    (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-- One store of a whole buffer, read back: the stored value, whatever the buffer held. -/
theorem read_whole_store {S : Shape} {e : EltTy} (m : Memref sig .tc .vmem S e) (f : m.view.ty.Contents (Elt F)) {off : Fin S.rank → ℕ}
    (hz : off = fun _ => 0) (inb : ∀ a, off a + S.size a ≤ S.size a) (w : S.Idx → Elt F e) :
    View.read (Elt F) m.view (m.view.writes (Elt F) f [(⟨Rect.unit off S.size inb, w⟩ : View.Piece (Elt F) S e)]) = w := by
  subst hz; funext y
  have h := View.read_writes_cons_emb m.view f (Rect.whole S) w [] y
  rw [Rect.emb_whole_apply] at h
  exact h

set_option maxHeartbeats 1000000 in
/-- A later point of phase 0. -/
theorem run_B (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬bc0 i) (hc1 : bc1 i) (hc2 : ¬bc2 i)
    (x0 : Vec F S400x10000 .f32) (x1 : Vec F S10000x128 .f32) (x2 : Vec F S128x128 .f32) (x3 : Vec F S1x128 .f32) (x4 : Vec F S128x128 .f32) (x5 : Vec F S1x128 .f32) (x6 : Vec F S400x128 .f32) (xs0 xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0
            ∗ (∃ d', ⌜SlicePut (400 * (i 1).val) xs1 d' (k0_pay2 x0 xs0 x3 x4)⌝ ∗ owns (c : Thread nD τ) arg10 fullShare d')) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; swap
  · iexists _; isplitr; swap; · iexact HS1
    ipureintro; rfl
  ipureintro
  refine slicePut_of_writes i hc1 arg10 harg10 xs1 _ _ ?_
  rw [ld0 arg2 harg2 x0 hz2, ld0 arg9 harg9 xs0 hz2, ld0 arg5 harg5 x3 hz2, ld0 arg6 harg6 x4 hz2]

set_option maxHeartbeats 1000000 in
/-- A point of phase 1. -/
theorem run_C (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : ¬bc0 i) (hc1 : ¬bc1 i) (hc2 : bc2 i)
    (x0 : Vec F S400x10000 .f32) (x1 : Vec F S10000x128 .f32) (x2 : Vec F S128x128 .f32) (x3 : Vec F S1x128 .f32) (x4 : Vec F S128x128 .f32) (x5 : Vec F S1x128 .f32) (xs0 xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 xs1 x5) ∗ owns (c : Thread nD τ) arg9 fullShare xs0
            ∗ owns (c : Thread nD τ) arg10 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [ld0 arg2 harg2 x0 hz2, ld0 arg10 harg10 xs1 hz2, ld0 arg7 harg7 x5 hz2]
    exact read_whole_store arg8 f6 hz2 _ _
  isplitl [HS0]
  · iexists _; isplitr; · ipureintro; exact harg9.read_unread _
    iexact HS0
  iexists _; isplitr; · ipureintro; exact harg10.read_unread _
  iexact HS1

set_option maxHeartbeats 1000000 in
/-- The first point. -/
theorem run_A (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S10000x128 .bf16) (harg10 : arg10.IsWhole) (hc0 : bc0 i) (hc1 : bc1 i) (hc2 : ¬bc2 i)
    (x0 : Vec F S400x10000 .f32) (x1 : Vec F S10000x128 .f32) (x2 : Vec F S128x128 .f32) (x3 : Vec F S1x128 .f32) (x4 : Vec F S128x128 .f32) (x5 : Vec F S1x128 .f32) (x6 : Vec F S400x128 .f32) (xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x1 x2)
            ∗ (∃ d', ⌜SlicePut (400 * (i 1).val) xs1 d' (k0_pay2 x0 (k0_pay1 x1 x2) x3 x4)⌝ ∗ owns (c : Thread nD τ) arg10 fullShare d')) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    sl_unfold_run_names
    rw [ld0 arg3 harg3 x1 hz2, ld0 arg4 harg4 x2 hz2]
    exact read_whole_store arg9 fs0 hz2 _ _
  iexists _; isplitr; swap
  · iexists _; isplitr; swap; · iexact HS1
    ipureintro; rfl
  ipureintro
  refine slicePut_of_writes i hc1 arg10 harg10 xs1 _ _ ?_
  sl_unfold_run_names
  rw [View.readCov_unit_zero arg9.view hz2, ld0 arg2 harg2 x0 hz2, ld0 arg3 harg3 x1 hz2, ld0 arg4 harg4 x2 hz2, ld0 arg5 harg5 x3 hz2, ld0 arg6 harg6 x4 hz2]

end Cert.KernelIdeal.Body

end
-- ==== Proof.BodyIdeal.lean ====
/-
  The proof data of the two-phase kernel's pipeline and its body obligation, at any float instance.

  After the first point the first scratch buffer holds  S1 = x · W1  for good. The second scratch buffer is filled one
  row block per point of phase 0: before point n (0 < n ≤ 25) its rows below 400 n hold  S2 , where row 400 b + r of S2
  is row r of  max (A_b · S1 + b1, 0) · W2  for the adjacency row block A_b of point b; from point 25 on it holds S2
  everywhere. The result's staging block is idle through phase 0 (handed back as found, never written back) and at
  point 25 + b holds  max (A_b · S2 + b2, 0) , which is then written back as row block b of the result.
-/
import proofs.«143349_g27754078666885_cont_9to1_584_18_alg».proof.Proof.RunsIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N50 : cfg0.N = 50 := N_0

/-- The grid's first point. -/
def t0 : Fin cfg0.N := ⟨0, by rw [N50]; omega⟩

/-- What the first scratch buffer holds from the first point on:  x · W1 . -/
def S1 (c : Dev nD) : Vec F S10000x128 .bf16 := k0_pay1 (iblk m c 1 t0) (iblk m c 2 t0)

/-- The 400 rows point t of phase 0 stores into the second scratch buffer. -/
def slice (c : Dev nD) (t : Fin cfg0.N) : Vec F S400x128 .bf16 := k0_pay2 (iblk m c 0 t) (S1 m c) (iblk m c 3 t) (iblk m c 4 t)

/-- The point of phase 0 that fills row v, and v's position within that point's rows. -/
def rowPt (v : ℕ) (hv : v < 10000) : Fin cfg0.N := ⟨v / 400, by rw [N50]; omega⟩
def rowIn (v : ℕ) : Fin 400 := ⟨v % 400, Nat.mod_lt _ (by decide)⟩

/-- What the second scratch buffer holds once phase 0 is over. -/
def S2 (c : Dev nD) : Vec F S10000x128 .bf16 :=
  fun y => slice m c (rowPt (y 0).val (y 0).isLt) (ix2 (rowIn (y 0).val) (y 1))

theorem S2_at (c : Dev nD) (t : Fin cfg0.N) (ht : t.val < 25) (r : Fin 400) (y : S10000x128.Idx) (hy : (y 0).val = 400 * t.val + r.val) :
    S2 m c y = slice m c t (ix2 r (y 1)) := by
  have e1 : rowPt (y 0).val (y 0).isLt = t := Fin.ext (by show (y 0).val / 400 = t.val; omega)
  have e2 : rowIn (y 0).val = r := Fin.ext (by show (y 0).val % 400 = r.val; omega)
  show slice m c (rowPt (y 0).val (y 0).isLt) (ix2 (rowIn (y 0).val) (y 1)) = _
  rw [e1, e2]

/-- One more point of phase 0 fills the next 400 rows. -/
theorem filled_step (c : Dev nD) (t : Fin cfg0.N) (ht : t.val < 25) (d d' : Vec F S10000x128 .bf16)
    (hd : ∀ y : S10000x128.Idx, (y 0).val < 400 * t.val → d y = S2 m c y)
    (hp : SlicePut (400 * (grid0.coords t 1).val) d d' (slice m c t)) :
    ∀ y : S10000x128.Idx, (y 0).val < 400 * (t.val + 1) → d' y = S2 m c y := by
  intro y hy
  have hc : (grid0.coords t 1).val = t.val := by rw [coord1 t]; exact Nat.mod_eq_of_lt ht
  rw [hc] at hp
  by_cases hlt : (y 0).val < 400 * t.val
  · rw [(hp y).2 (Or.inl hlt)]; exact hd y hlt
  · have hr : (y 0).val - 400 * t.val < 400 := by omega
    have hy' : (y 0).val = 400 * t.val + (⟨(y 0).val - 400 * t.val, hr⟩ : Fin 400).val := by
      show (y 0).val = 400 * t.val + ((y 0).val - 400 * t.val); omega
    rw [(hp y).1 ⟨(y 0).val - 400 * t.val, hr⟩ hy']
    exact (S2_at m c t ht ⟨_, hr⟩ y hy').symm

/-- The result's block at point t of phase 1. -/
def out6 (c : Dev nD) (t : Fin cfg0.N) : Vec F S400x128 .f32 := k0_pay3 (iblk m c 0 t) (S2 m c) (iblk m c 5 t)

/-! ## The invariant between points -/

/-- Before the first point: both scratch buffers at anything. Before point n > 0: the first at S1, the second at S2 on
    its rows below 400 n. -/
def Phi (c : Dev nD) : (n : ℕ) → n ≤ cfg0.N → sProp 𝕄
  | 0, _ => Pipeline.ΦA spec0 c
  | n + 1, _ => iprop(iprop(owns (c : Thread nD τ) sc0 fullShare (S1 m c) ∗ (∃ d, ⌜∀ y : S10000x128.Idx, (y 0).val < 400 * (n + 1) → d y = S2 m c y⌝ ∗ owns (c : Thread nD τ) sc1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) sc0 fullShare (S1 m c) ∗ (∃ d, ⌜∀ y : S10000x128.Idx, (y 0).val < 400 * (n + 1) → d y = S2 m c y⌝ ∗ owns (c : Thread nD τ) sc1 fullShare d)) ∗ (∃ r, prngReg c r)) := rfl

theorem Phi_pos (c : Dev nD) (n : ℕ) (h : n ≤ cfg0.N) (hz : n ≠ 0) :
    Phi m c n h = iprop(iprop(owns (c : Thread nD τ) sc0 fullShare (S1 m c) ∗ (∃ d, ⌜∀ y : S10000x128.Idx, (y 0).val < 400 * n → d y = S2 m c y⌝ ∗ owns (c : Thread nD τ) sc1 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out6 (c : Dev nD) (t : Fin cfg0.N) : (dats m 0 c).after 6 t = out6 m c t := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- At every point the case the point is in runs from the invariant and the windows' blocks to the next invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare (iblk m c 0 t) from by
    unfold Dat.leavesExact; rw [live0 t, after_in0]]
  rw [show (dats m 0 c).leavesExact 1 t = owns (c : Thread nD τ) (ms1 t) fullShare (iblk m c 1 t) from by
    unfold Dat.leavesExact; rw [live1 t, after_in1]]
  rw [show (dats m 0 c).leavesExact 2 t = owns (c : Thread nD τ) (ms2 t) fullShare (iblk m c 2 t) from by
    unfold Dat.leavesExact; rw [live2 t, after_in2]]
  rw [show (dats m 0 c).leavesExact 3 t = owns (c : Thread nD τ) (ms3 t) fullShare (iblk m c 3 t) from by
    unfold Dat.leavesExact; rw [live3 t, after_in3]]
  rw [show (dats m 0 c).leavesExact 4 t = owns (c : Thread nD τ) (ms4 t) fullShare (iblk m c 4 t) from by
    unfold Dat.leavesExact; rw [live4 t, after_in4]]
  rw [show (dats m 0 c).leavesExact 5 t = owns (c : Thread nD τ) (ms5 t) fullShare (iblk m c 5 t) from by
    unfold Dat.leavesExact; rw [live5 t, after_in5]]
  have hN : t.val < 50 := lt_of_lt_of_eq t.isLt N50
  by_cases h1 : t.val < 25
  · -- phase 0: the result's window is idle and not written back
    have h2 : ¬25 ≤ t.val := by omega
    rw [(dats m 0 c).leavesExact_idle 6 t (by rw [idle6 t]; exact decide_eq_true h1) (by rw [flush6 t]; exact decide_eq_false h2)]
    by_cases h0 : t.val % 50 = 0
    · -- the first point
      obtain rfl : t = t0 := Fin.ext (by show t.val = 0; omega)
      rw [Phi_castSucc m c t0, Phi_zero m c _ _ (show (t0 : Fin cfg0.N).val = 0 from rfl), PhiA_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t0) _ _ _ _ _ _ _ _ _ _ _ _ _ _ _ _ _ _ ((hbc0 t0).mpr h0) ((hbc1 t0).mpr h1) (fun h => h2 ((hbc2 t0).mp h)) (iblk m c 0 t0) (iblk m c 1 t0) (iblk m c 2 t0) (iblk m c 3 t0) (iblk m c 4 t0) (iblk m c 5 t0) ((dats m 0 c).before 6 t0 d6) e1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexact HS1
      iintro ⟨H0, H1, H2, H3, H4, H5, H6, HS0, ⟨%d', %hd', HS1⟩⟩
      isplitl [HS0 HS1 Hg]
      · isplitl [HS0 HS1]
        · isplitl [HS0]
          · iexact HS0
          iexists d'; isplitr
          · ipureintro
            exact filled_step m c t0 h1 e1 d' (fun y hy => absurd hy (by show ¬(y 0).val < 400 * 0; omega)) hd'
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
    · -- a later point of phase 0
      have hz : t.val ≠ 0 := by omega
      rw [Phi_castSucc m c t, Phi_pos m c _ _ hz]
      iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ _ _ _ _ _ _ _ _ _ _ _ _ _ _ _ _ _ (fun h => h0 ((hbc0 t).mp h)) ((hbc1 t).mpr h1) (fun h => h2 ((hbc2 t).mp h)) (iblk m c 0 t) (iblk m c 1 t) (iblk m c 2 t) (iblk m c 3 t) (iblk m c 4 t) (iblk m c 5 t) ((dats m 0 c).before 6 t d6) (S1 m c) e1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, ⟨%d', %hd', HS1⟩⟩
      isplitl [HS0 HS1 Hg]
      · isplitl [HS0 HS1]
        · isplitl [HS0]
          · iexact HS0
          iexists d'; isplitr
          · ipureintro
            exact filled_step m c t h1 e1 d' he1 hd'
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6
  · -- phase 1: the second scratch buffer is full; the result's block is stored whole
    have h2 : 25 ≤ t.val := by omega
    have h0 : ¬t.val % 50 = 0 := by omega
    have hz : t.val ≠ 0 := by omega
    rw [show (dats m 0 c).leavesExact 6 t = owns (c : Thread nD τ) (ms6 t) fullShare (out6 m c t) from by
      unfold Dat.leavesExact; rw [idle6 t, decide_eq_false h1, after_out6]]
    rw [Phi_castSucc m c t, Phi_pos m c _ _ hz]
    iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : e1 = S2 m c := funext fun y => he1 y (by have hy : (y 0).val < 10000 := (y 0).isLt; omega)
    iapply (run_C c (grid0.coords t) _ _ _ _ _ _ _ _ _ _ _ _ _ _ _ _ _ _ (fun h => h0 ((hbc0 t).mp h)) (fun h => h1 ((hbc1 t).mp h)) ((hbc2 t).mpr h2) (iblk m c 0 t) (iblk m c 1 t) (iblk m c 2 t) (iblk m c 3 t) (iblk m c 4 t) (iblk m c 5 t) (S1 m c) (S2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists (S2 m c); isplitr
        · ipureintro; exact fun _ _ => rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives back both scratch buffers at some contents. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 50 := N50; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution terminates with every array of the pipeline at what the library computes from the proof
    data (the result: its entry contents overwritten block by block by what phase 1 left) and every other unscoped
    buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run's post read at the six argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.BlocksIdeal.lean ====
/-
  What each input block of the two-layer graph convolution holds at a grid point, in terms of the argument arrays.

  The features and the two weight matrices are staged whole: their block at every point is the array itself. The
  adjacency is staged 400 rows at a time: at point t its block is rows 400 (t mod 25) … 400 (t mod 25) + 399, all
  columns. Each bias is a length-128 vector recast as one row of 128 before the grid starts, and that row is staged
  whole: its block at column l is the bias at l. A block's coordinate on an axis is always the block's index there
  times the block's extent plus the coordinate inside the block, and the block indices are decided once over the
  50 points of the grid.
-/
import proofs.«143349_g27754078666885_cont_9to1_584_18_alg».proof.Proof.ScheduleIdeal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

variable (m : (ℓ : Loc nD τ sig) → Buf (Elt F) ℓ)

/-! ## The whole-array windows sit at block (0, 0) at every point -/

theorem index1_0 : ∀ t : Fin cfg0.N, win0_1.index t (0 : Fin 2) = 0 :=
  (by decide +kernel : ∀ t : Fin grid0.N, win0_1.index t (0 : Fin 2) = 0)
theorem index1_1 : ∀ t : Fin cfg0.N, win0_1.index t (1 : Fin 2) = 0 :=
  (by decide +kernel : ∀ t : Fin grid0.N, win0_1.index t (1 : Fin 2) = 0)
theorem index2_0 : ∀ t : Fin cfg0.N, win0_2.index t (0 : Fin 2) = 0 :=
  (by decide +kernel : ∀ t : Fin grid0.N, win0_2.index t (0 : Fin 2) = 0)
theorem index2_1 : ∀ t : Fin cfg0.N, win0_2.index t (1 : Fin 2) = 0 :=
  (by decide +kernel : ∀ t : Fin grid0.N, win0_2.index t (1 : Fin 2) = 0)
theorem index3_0 : ∀ t : Fin cfg0.N, win0_3.index t (0 : Fin 2) = 0 :=
  (by decide +kernel : ∀ t : Fin grid0.N, win0_3.index t (0 : Fin 2) = 0)
theorem index3_1 : ∀ t : Fin cfg0.N, win0_3.index t (1 : Fin 2) = 0 :=
  (by decide +kernel : ∀ t : Fin grid0.N, win0_3.index t (1 : Fin 2) = 0)
theorem index4_0 : ∀ t : Fin cfg0.N, win0_4.index t (0 : Fin 2) = 0 :=
  (by decide +kernel : ∀ t : Fin grid0.N, win0_4.index t (0 : Fin 2) = 0)
theorem index4_1 : ∀ t : Fin cfg0.N, win0_4.index t (1 : Fin 2) = 0 :=
  (by decide +kernel : ∀ t : Fin grid0.N, win0_4.index t (1 : Fin 2) = 0)
theorem index5_0 : ∀ t : Fin cfg0.N, win0_5.index t (0 : Fin 2) = 0 :=
  (by decide +kernel : ∀ t : Fin grid0.N, win0_5.index t (0 : Fin 2) = 0)
theorem index5_1 : ∀ t : Fin cfg0.N, win0_5.index t (1 : Fin 2) = 0 :=
  (by decide +kernel : ∀ t : Fin grid0.N, win0_5.index t (1 : Fin 2) = 0)

/-! ## The whole-array windows: the block is the array -/

/-- The features' block at any point is the whole array. -/
theorem blk_x (c : Dev nD) (t : Fin cfg0.N) (y : S10000x128.Idx) : iblk m c 1 t y = V m c main_arg0 y := by
  show V m c main_arg0 (((cfg0.win 1).blk t).view.emb y) = V m c main_arg0 y
  refine congrArg _ ?_
  funext a; apply Fin.ext
  match a with
  | ⟨0, _⟩ => show win0_1.index t (0 : Fin 2) * 10000 + 1 * (y 0).val = (y 0).val; rw [index1_0 t]; omega
  | ⟨1, _⟩ => show win0_1.index t (1 : Fin 2) * 128 + 1 * (y 1).val = (y 1).val; rw [index1_1 t]; omega

/-- The first weight matrix's block at any point is the whole array. -/
theorem blk_w1 (c : Dev nD) (t : Fin cfg0.N) (y : S128x128.Idx) : iblk m c 2 t y = V m c main_arg2 y := by
  show V m c main_arg2 (((cfg0.win 2).blk t).view.emb y) = V m c main_arg2 y
  refine congrArg _ ?_
  funext a; apply Fin.ext
  match a with
  | ⟨0, _⟩ => show win0_2.index t (0 : Fin 2) * 128 + 1 * (y 0).val = (y 0).val; rw [index2_0 t]; omega
  | ⟨1, _⟩ => show win0_2.index t (1 : Fin 2) * 128 + 1 * (y 1).val = (y 1).val; rw [index2_1 t]; omega

/-- The second weight matrix's block at any point is the whole array. -/
theorem blk_w2 (c : Dev nD) (t : Fin cfg0.N) (y : S128x128.Idx) : iblk m c 4 t y = V m c main_arg4 y := by
  show V m c main_arg4 (((cfg0.win 4).blk t).view.emb y) = V m c main_arg4 y
  refine congrArg _ ?_
  funext a; apply Fin.ext
  match a with
  | ⟨0, _⟩ => show win0_4.index t (0 : Fin 2) * 128 + 1 * (y 0).val = (y 0).val; rw [index4_0 t]; omega
  | ⟨1, _⟩ => show win0_4.index t (1 : Fin 2) * 128 + 1 * (y 1).val = (y 1).val; rw [index4_1 t]; omega

/-! ## The adjacency: 400 rows per point -/

/-- The adjacency's block at point t is rows 400 (t mod 25) … 400 (t mod 25) + 399, all columns. -/
theorem blk_adj (c : Dev nD) (t : Fin cfg0.N) (r : Fin 400) (k : Fin 10000) :
    iblk m c 0 t (ix2 r k) = V m c main_arg1 (ix2 (⟨400 * (t.val % 25) + r.val, by omega⟩ : Fin 10000) k) := by
  show V m c main_arg1 (((cfg0.win 0).blk t).view.emb (ix2 r k)) = _
  refine congrArg _ ?_
  funext a; apply Fin.ext
  match a with
  | ⟨0, _⟩ => show win0_0.index t (0 : Fin 2) * 400 + 1 * r.val = 400 * (t.val % 25) + r.val; rw [Body.index0_0 t]; omega
  | ⟨1, _⟩ => show win0_0.index t (1 : Fin 2) * 10000 + 1 * k.val = k.val; rw [Body.index0_1 t]; omega

/-! ## The two bias rows: a length-128 vector recast as one row -/

/-- The first bias row, as the region finds it, is the first bias recast to one row. -/
theorem V_main_v0 (c : Dev nD) :
    (V m c main_v0 : S1x128.Idx → Elt F .f32) = shapeCast S1x128 (m ((c.tc : Thread nD τ).loc main_arg3)) shapeCasts_S128_S1x128 := by
  dsimp only [Gen.V, Gen.hostOps0]; after_results; rfl

/-- The second bias row, as the region finds it, is the second bias recast to one row. -/
theorem V_main_v1 (c : Dev nD) :
    (V m c main_v1 : S1x128.Idx → Elt F .f32) = shapeCast S1x128 (m ((c.tc : Thread nD τ).loc main_arg5)) shapeCasts_S128_S1x128 := by
  dsimp only [Gen.V, Gen.hostOps0]; after_results; rfl

/-- The first bias row's block at any point, at column l, is the first bias at l. -/
theorem blk_b1 (c : Dev nD) (t : Fin cfg0.N) (l : Fin 128) :
    iblk m c 3 t (ix2 (0 : Fin 1) l) = m ((c.tc : Thread nD τ).loc main_arg3) (ix1 l) := by
  have hemb : ((cfg0.win 3).blk t).view.emb (ix2 (0 : Fin 1) l) = ix2 (0 : Fin 1) l := by
    funext a; apply Fin.ext
    match a with
    | ⟨0, _⟩ => show win0_3.index t (0 : Fin 2) * 1 + 1 * 0 = 0; rw [index3_0 t]
    | ⟨1, _⟩ => show win0_3.index t (1 : Fin 2) * 128 + 1 * l.val = l.val; rw [index3_1 t]; omega
  show V m c main_v0 (((cfg0.win 3).blk t).view.emb (ix2 (0 : Fin 1) l)) = _
  exact (congrArg (V m c main_v0) hemb).trans
    ((congrFun (V_main_v0 m c) _).trans (shapeCast_a_1a_apply _ _ (0 : Fin 1) l))

/-- The second bias row's block at any point, at column l, is the second bias at l. -/
theorem blk_b2 (c : Dev nD) (t : Fin cfg0.N) (l : Fin 128) :
    iblk m c 5 t (ix2 (0 : Fin 1) l) = m ((c.tc : Thread nD τ).loc main_arg5) (ix1 l) := by
  have hemb : ((cfg0.win 5).blk t).view.emb (ix2 (0 : Fin 1) l) = ix2 (0 : Fin 1) l := by
    funext a; apply Fin.ext
    match a with
    | ⟨0, _⟩ => show win0_5.index t (0 : Fin 2) * 1 + 1 * 0 = 0; rw [index5_0 t]
    | ⟨1, _⟩ => show win0_5.index t (1 : Fin 2) * 128 + 1 * l.val = l.val; rw [index5_1 t]; omega
  show V m c main_v1 (((cfg0.win 5).blk t).view.emb (ix2 (0 : Fin 1) l)) = _
  exact (congrArg (V m c main_v1) hemb).trans
    ((congrFun (V_main_v1 m c) _).trans (shapeCast_a_1a_apply _ _ (0 : Fin 1) l))

end Cert.KernelIdeal.Blocks

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«143349_g27754078666885_cont_9to1_584_18_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«143349_g27754078666885_cont_9to1_584_18_alg».proof.Proof.LibDenseRows
import proofs.«143349_g27754078666885_cont_9to1_584_18_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.PayValue.lean ====
/-
  The three values the kernel body stores, read one entry at a time over the extended reals.

  * The first stored value is the features times the first weight matrix: at (p, j) it is
        ∑ₗ x (p, l) · w (l, j).
  * The third stored value is a block of rows of the adjacency times a stored feature matrix, plus the one bias
    row repeated down the rows, cut at zero: at (r, j) it is
        max (∑ₖ a (r, k) · s (k, j) + b (0, j)) 0.
  * The second stored value is that same activation times the second weight matrix: at (r, j) it is
        ∑ₗ max (∑ₖ a (r, k) · s (k, l) + b (0, l)) 0 · w (l, j).

  Over the extended reals a narrowing to a shorter format changes nothing, a recast of a shape to itself is the
  identity, and the all-zero bit pattern is the number zero; each product has the plain [M, K] by [K, N] dimension
  numbers, so it is the plain sum over the shared axis.
-/
import proofs.«143349_g27754078666885_cont_9to1_584_18_alg».proof.Proof.Gen.KernelIdeal.Skeleton
import proofs.«143349_g27754078666885_cont_9to1_584_18_alg».proof.Proof.LibPlainLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## The three products have the plain dimension numbers -/

theorem dot_x_w_plain : dot_S10000x128_S128x128_S10000x128_1_0_0_1_n_n = DotDims.plain 10000 128 128 := rfl

theorem dot_a_s_plain : dot_S400x10000_S10000x128_S400x128_1_0_0_1_n_n = DotDims.plain 400 10000 128 := rfl

theorem dot_h_w_plain : dot_S400x128_S128x128_S400x128_1_0_0_1_n_n = DotDims.plain 400 128 128 := rfl

/-! ## The activation: product, bias row, cut at zero -/

/-- A product of an [M, K] array with a [K, N] array of any two formats into a zero accumulator, plus a [1, N] bias
    row repeated down the rows, then the maximum with zero, at (p, j). -/
theorem relu_apply {M K N : ℕ} {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max
    (congrArg₂ (· + ·) (Cert.PlainLayers.plainMM_of_eq D hD prec h w p j)
      ((broadcastTo_1b_ab_apply _ hb p j).trans (congrFun (shapeCast_self b hc) _)))
    Ideal.ofBits_zero_f32

/-! ## The stored values at an entry -/

/-- The first stored value at (p, j): the sum over l of x (p, l) times w (l, j). -/
theorem pay1_apply (x : Vec Ideal S10000x128 .f32) (w : Vec Ideal S128x128 .f32) (p : Fin 10000) (j : Fin 128) :
    k0_pay1 (F := Ideal) x w (ix2 p j) = ∑ l : Fin 128, x (ix2 p l) * w (ix2 l j) := by
  unfold k0_pay1
  rw [shapeCast_self]
  refine (truncf_apply (ψ := .bf16) _ bitsLt_bf16_f32 _).trans ?_
  exact Cert.PlainLayers.plainMM_of_eq (φ₁ := .f32) (φ₂ := .f32) _ dot_x_w_plain none x w p j

/-- The third stored value at (r, j): the larger of zero and the sum over k of a (r, k) times s (k, j) plus the bias
    at j. -/
theorem pay3_apply (a : Vec Ideal S400x10000 .f32) (s : Vec Ideal S10000x128 .bf16) (b : Vec Ideal S1x128 .f32) (r : Fin 400) (j : Fin 128) :
    k0_pay3 (F := Ideal) a s b (ix2 r j) = max ((∑ k : Fin 10000, a (ix2 r k) * s (ix2 k j)) + b (ix2 (0 : Fin 1) j)) 0 := by
  unfold k0_pay3
  exact relu_apply (φ₁ := .f32) (φ₂ := .bf16) _ dot_a_s_plain none a s b shapeCasts_S1x128_S1x128 broadcasts_S1x128_S400x128 r j

/-- The second stored value at (r, j): the sum over l of the activation at (r, l) times w (l, j). -/
theorem pay2_apply (a : Vec Ideal S400x10000 .f32) (s : Vec Ideal S10000x128 .bf16) (b : Vec Ideal S1x128 .f32) (w : Vec Ideal S128x128 .f32)
    (r : Fin 400) (j : Fin 128) :
    k0_pay2 (F := Ideal) a s b w (ix2 r j)
      = ∑ l : Fin 128, max ((∑ k : Fin 10000, a (ix2 r k) * s (ix2 k l)) + b (ix2 (0 : Fin 1) l)) 0 * w (ix2 l j) := by
  unfold k0_pay2
  rw [shapeCast_self]
  refine (truncf_apply (ψ := .bf16) _ bitsLt_bf16_f32 _).trans ?_
  refine (Cert.PlainLayers.plainMM_of_eq (φ₁ := .f32) (φ₂ := .f32) _ dot_h_w_plain none _ w r j).trans ?_
  exact Finset.sum_congr rfl fun l _ => congrArg (· * w (ix2 l j))
    (relu_apply (φ₁ := .f32) (φ₂ := .bf16) _ dot_a_s_plain none a s b shapeCasts_S1x128_S1x128 broadcasts_S1x128_S400x128 r l)

end Cert.KernelIdeal.PayValue

end
-- ==== Proof.Spec.lean ====
/-
  The result of a two-layer dense graph convolution, as ONE function of the six argument arrays over the extended reals.

  With  mm h w (p, j) = ∑ₗ h (p, l) · w (l, j)  (rows times a matrix) and  act z b (p, j) = max (z (p, j) + b j) 0
  (bias added to every row, then cut at zero), the network is

      out = act (adj · (act (adj · (x · W1)) b1 · W2)) b2 ,

  every product kept in the grouping written here (adj times an already formed product), so that no law of the
  extended reals beyond the definitions is needed to compare two programs that both compute it in this grouping.
-/
import Idealize.ShloMosaic.Lib.ValueIdx

noncomputable section

open scoped BigOperators

namespace Cert.GcnSpec

open Idealize.ShloMosaic Idealize.ShloMosaic.ValueIdx

/-- An [a, b] array of extended reals, addressed by a two-coordinate index. -/
abbrev Mat (a b : ℕ) : Type := (⟨2, ![a, b]⟩ : Shape).Idx → EReal

/-- A length-n vector of extended reals. -/
abbrev Vec1 (n : ℕ) : Type := (⟨1, ![n]⟩ : Shape).Idx → EReal

/-- Rows times a matrix: entry (p, j) is the sum over l of h (p, l) · w (l, j). -/
def mm {a k b : ℕ} (h : Mat a k) (w : Mat k b) : Mat a b :=
  fun i => ∑ l : Fin k, h (ix2 (i 0) l) * w (ix2 l (i 1))

/-- A bias added to every row, then the maximum with zero. -/
def act {a b : ℕ} (z : Mat a b) (bias : Vec1 b) : Mat a b :=
  fun i => max (z i + bias (ix1 (i 1))) 0

/-- The first layer's projected features  x · W1. -/
def support1 (x : Mat 10000 128) (w1 : Mat 128 128) : Mat 10000 128 := mm x w1

/-- The second layer's projected features  act (adj · (x · W1)) b1 · W2. -/
def support2 (x : Mat 10000 128) (adj : Mat 10000 10000) (w1 : Mat 128 128) (b1 : Vec1 128) (w2 : Mat 128 128) :
    Mat 10000 128 :=
  mm (act (mm adj (support1 x w1)) b1) w2

/-- The network's result. -/
def G (x : Mat 10000 128) (adj : Mat 10000 10000) (w1 : Mat 128 128) (b1 : Vec1 128) (w2 : Mat 128 128) (b2 : Vec1 128) :
    Mat 10000 128 :=
  act (mm adj (support2 x adj w1 b1 w2)) b2

theorem mm_apply {a k b : ℕ} (h : Mat a k) (w : Mat k b) (p : Fin a) (j : Fin b) :
    mm h w (ix2 p j) = ∑ l : Fin k, h (ix2 p l) * w (ix2 l j) := rfl

theorem act_apply {a b : ℕ} (z : Mat a b) (bias : Vec1 b) (p : Fin a) (j : Fin b) :
    act z bias (ix2 p j) = max (z (ix2 p j) + bias (ix1 j)) 0 := rfl

end Cert.GcnSpec

end
-- ==== Proof.BlockValue.lean ====
/-
  The kernel's three stored values are the specification's arrays, one block of rows at a time.

  The 10000 rows are taken in 25 blocks of 400; block b holds rows 400 b … 400 b + 399. When a block's operand a holds
  those rows of the adjacency and the bias row holds the layer's bias, the activation the kernel forms on the block,

      max (∑ₖ a (r, k) · s (k, l) + bias l) 0,

  is the layer  act (adj · s) bias  at row 400 b + r. With s the first layer's projected features this gives the
  second layer's projected features (after the product with the second weight matrix); with s the second layer's
  projected features it gives the network's result. Both sides keep the same grouping of sums, so nothing beyond the
  definitions is used.
-/
import proofs.«143349_g27754078666885_cont_9to1_584_18_alg».proof.Proof.PayValue
import proofs.«143349_g27754078666885_cont_9to1_584_18_alg».proof.Proof.Spec
import Idealize.ShloMosaic.Lib.ValueIdx

noncomputable section

open scoped BigOperators

namespace Cert.KernelIdeal.BlockValue

open Idealize.ShloMosaic Idealize.ShloMosaic.ValueIdx Cert.KernelIdeal Cert.KernelIdeal.Gen Cert.KernelIdeal.PayValue Cert.GcnSpec

/-- The first stored value is the first layer's projected features  x · W1. -/
theorem pay1_eq (x : Vec Ideal S10000x128 .f32) (w1 : Vec Ideal S128x128 .f32) :
    k0_pay1 (F := Ideal) x w1 = Cert.GcnSpec.support1 x w1 := by
  funext i
  obtain ⟨p, j, rfl⟩ : ∃ (p : Fin 10000) (j : Fin 128), i = ix2 p j := ⟨i 0, i 1, eq_ix2 i⟩
  exact (pay1_apply x w1 p j).trans (mm_apply x w1 p j).symm

/-- One layer on a block of 400 rows. If a holds rows 400 b … 400 b + 399 of adj and the bias row holds the bias, then
    the larger of zero and (row r of a) · (column l of s) plus the bias at l is the layer  act (adj · s) bias  at
    row 400 b + r, column l. -/
theorem act_block (adj : Vec Ideal S10000x10000 .f32) (s : Cert.GcnSpec.Mat 10000 128) (bias : Vec Ideal S128 .f32)
    (b : ℕ) (hb : b < 25) (a : Vec Ideal S400x10000 .f32) (brow : Vec Ideal S1x128 .f32)
    (ha : ∀ (r : Fin 400) (k : Fin 10000), a (ix2 r k) = adj (ix2 (⟨400 * b + r.val, by omega⟩ : Fin 10000) k))
    (hrow : ∀ l : Fin 128, brow (ix2 (0 : Fin 1) l) = bias (ix1 l)) (r : Fin 400) (l : Fin 128) :
    max ((∑ k : Fin 10000, a (ix2 r k) * s (ix2 k l)) + brow (ix2 (0 : Fin 1) l)) 0
      = Cert.GcnSpec.act (Cert.GcnSpec.mm adj s) bias (ix2 (⟨400 * b + r.val, by omega⟩ : Fin 10000) l) := by
  refine Eq.trans ?_ (act_apply (mm adj s) bias _ l).symm
  rw [hrow l, mm_apply]
  refine congrArg (fun t => max (t + bias (ix1 l)) 0) ?_
  exact Finset.sum_congr rfl fun k _ => by rw [ha r k]

/-- The second stored value of block b is the second layer's projected features at the block's rows. -/
theorem pay2_block (x : Vec Ideal S10000x128 .f32) (adj : Vec Ideal S10000x10000 .f32) (w1 : Vec Ideal S128x128 .f32)
    (b1 : Vec Ideal S128 .f32) (w2 : Vec Ideal S128x128 .f32)
    (b : ℕ) (hb : b < 25) (a : Vec Ideal S400x10000 .f32) (brow : Vec Ideal S1x128 .f32)
    (ha : ∀ (r : Fin 400) (k : Fin 10000), a (ix2 r k) = adj (ix2 (⟨400 * b + r.val, by omega⟩ : Fin 10000) k))
    (hrow : ∀ l : Fin 128, brow (ix2 (0 : Fin 1) l) = b1 (ix1 l)) (r : Fin 400) (j : Fin 128) :
    k0_pay2 (F := Ideal) a (Cert.GcnSpec.support1 x w1) brow w2 (ix2 r j)
      = Cert.GcnSpec.support2 x adj w1 b1 w2 (ix2 (⟨400 * b + r.val, by omega⟩ : Fin 10000) j) := by
  refine (pay2_apply a (support1 x w1) brow w2 r j).trans ?_
  refine Eq.trans ?_ (mm_apply (act (mm adj (support1 x w1)) b1) w2 _ j).symm
  exact Finset.sum_congr rfl fun l _ =>
    congrArg (· * w2 (ix2 l j)) (act_block adj (support1 x w1) b1 b hb a brow ha hrow r l)

/-- The third stored value of block b is the network's result at the block's rows. -/
theorem pay3_block (x : Vec Ideal S10000x128 .f32) (adj : Vec Ideal S10000x10000 .f32) (w1 : Vec Ideal S128x128 .f32)
    (b1 : Vec Ideal S128 .f32) (w2 : Vec Ideal S128x128 .f32) (b2 : Vec Ideal S128 .f32)
    (b : ℕ) (hb : b < 25) (a : Vec Ideal S400x10000 .f32) (brow : Vec Ideal S1x128 .f32)
    (ha : ∀ (r : Fin 400) (k : Fin 10000), a (ix2 r k) = adj (ix2 (⟨400 * b + r.val, by omega⟩ : Fin 10000) k))
    (hrow : ∀ l : Fin 128, brow (ix2 (0 : Fin 1) l) = b2 (ix1 l)) (r : Fin 400) (j : Fin 128) :
    k0_pay3 (F := Ideal) a (Cert.GcnSpec.support2 x adj w1 b1 w2) brow (ix2 r j)
      = Cert.GcnSpec.G x adj w1 b1 w2 b2 (ix2 (⟨400 * b + r.val, by omega⟩ : Fin 10000) j) :=
  (pay3_apply a (support2 x adj w1 b1 w2) brow r j).trans
    (act_block adj (support2 x adj w1 b1 w2) b2 b hb a brow ha hrow r j)

end Cert.KernelIdeal.BlockValue

end
-- ==== Proof.KernelValue.lean ====
/-
  The two-phase kernel's result array is the network function of its six argument arrays.

  From the first point on the first scratch buffer holds  x · W1 , the first layer's projected features. At point b of
  phase 0 the adjacency's block is rows 400 b … 400 b + 399, so the 400 rows stored there are those rows of
  act (adj · (x · W1)) b1 · W2 : once phase 0 is over the second scratch buffer holds the second layer's projected
  features. At point 25 + b of phase 1 the adjacency's block is again row block b, and the result's block is rows
  400 b … 400 b + 399 of  act (adj · (second layer's projected features)) b2 , the network's result. Each of these
  blocks is written back where it sits in the result array, and the 25 blocks of phase 1 fill the array (row v is
  in the block of point 25 + v / 400), so after the run the result array holds the network's result; the six argument
  arrays are left as launched.
-/
import proofs.«143349_g27754078666885_cont_9to1_584_18_alg».proof.Proof.BodyIdeal
import proofs.«143349_g27754078666885_cont_9to1_584_18_alg».proof.Proof.BlocksIdeal
import proofs.«143349_g27754078666885_cont_9to1_584_18_alg».proof.Proof.BlockValue
import proofs.«143349_g27754078666885_cont_9to1_584_18_alg».proof.Proof.Spec
import Idealize.ShloMosaic.Lib.Pipeline.Value
import Idealize.ShloMosaic.Lib.ValueIdx

set_option maxRecDepth 16384

noncomputable section

namespace Cert.KernelIdeal.RefValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open Cert.KernelIdeal.Body Cert.KernelIdeal.Blocks Cert.KernelIdeal.BlockValue

variable (m : (ℓ : Loc nD τ sig) → Buf (Elt Ideal) ℓ) (ρ : Dev nD → PrngReg)

/-! ## The network function of core c's six argument arrays -/

/-- The network's result computed from core c's argument arrays as launched, as the contents of the result array. -/
abbrev Gm (c : Dev nD) : Buf (Elt Ideal) ((c.tc : Thread nD τ).loc main_v2) :=
  Cert.GcnSpec.G (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-! ## The two scratch buffers are the two layers' projected features -/

/-- The first scratch buffer holds  x · W1. -/
theorem S1_eq (c : Dev nD) :
    S1 m c = Cert.GcnSpec.support1 (m ((c.tc : Thread nD τ).loc main_arg0)) (m ((c.tc : Thread nD τ).loc main_arg2)) := by
  have e1 : iblk m c 1 t0 = m ((c.tc : Thread nD τ).loc main_arg0) :=
    funext fun y => (blk_x m c t0 y).trans (congrFun (V_main_arg0 m c) y)
  have e2 : iblk m c 2 t0 = m ((c.tc : Thread nD τ).loc main_arg2) :=
    funext fun y => (blk_w1 m c t0 y).trans (congrFun (V_main_arg2 m c) y)
  show k0_pay1 (F := Ideal) (iblk m c 1 t0) (iblk m c 2 t0) = _
  rw [e1, e2]
  exact pay1_eq _ _

/-- The adjacency's block at a point of phase 0 is that point's 400 rows. -/
theorem adj_rows0 (c : Dev nD) (t : Fin cfg0.N) (ht : t.val < 25) (r : Fin 400) (k : Fin 10000) :
    iblk m c 0 t (ix2 r k) = m ((c.tc : Thread nD τ).loc main_arg1) (ix2 (⟨400 * t.val + r.val, by omega⟩ : Fin 10000) k) := by
  have hmod : t.val % 25 = t.val := Nat.mod_eq_of_lt ht
  refine (blk_adj m c t r k).trans ((congrFun (V_main_arg1 m c) _).trans ?_)
  refine congrArg (m ((c.tc : Thread nD τ).loc main_arg1)) (congrArg (fun p => ix2 p k) (Fin.ext ?_))
  show 400 * (t.val % 25) + r.val = 400 * t.val + r.val
  rw [hmod]

/-- The 400 rows point t of phase 0 stores are rows 400 t … 400 t + 399 of the second layer's projected features. -/
theorem slice_eq (c : Dev nD) (t : Fin cfg0.N) (ht : t.val < 25) (r : Fin 400) (j : Fin 128) :
    slice m c t (ix2 r j)
      = Cert.GcnSpec.support2 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (ix2 (⟨400 * t.val + r.val, by omega⟩ : Fin 10000) j) := by
  have e4 : iblk m c 4 t = m ((c.tc : Thread nD τ).loc main_arg4) :=
    funext fun y => (blk_w2 m c t y).trans (congrFun (V_main_arg4 m c) y)
  show k0_pay2 (F := Ideal) (iblk m c 0 t) (S1 m c) (iblk m c 3 t) (iblk m c 4 t) (ix2 r j) = _
  rw [S1_eq, e4]
  exact pay2_block _ (m ((c.tc : Thread nD τ).loc main_arg1)) _ (m ((c.tc : Thread nD τ).loc main_arg3)) _ t.val ht
    (iblk m c 0 t) (iblk m c 3 t) (fun r k => adj_rows0 m c t ht r k) (fun l => blk_b1 m c t l) r j

/-- The second scratch buffer, once phase 0 is over, holds the second layer's projected features. -/
theorem S2_eq (c : Dev nD) :
    S2 m c = Cert.GcnSpec.support2 (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  funext y
  have hv : (y 0).val < 10000 := (y 0).isLt
  show slice m c (rowPt (y 0).val (y 0).isLt) (ix2 (rowIn (y 0).val) (y 1)) = _
  refine (slice_eq m c (rowPt (y 0).val (y 0).isLt) (by show (y 0).val / 400 < 25; omega) (rowIn (y 0).val) (y 1)).trans ?_
  refine congrArg _ ?_
  funext a
  match a with
  | ⟨0, _⟩ => exact Fin.ext (by show 400 * ((y 0).val / 400) + (y 0).val % 400 = (y 0).val; omega)
  | ⟨1, _⟩ => rfl

/-! ## The result's block at a point of phase 1 -/

/-- The adjacency's block at point 25 + b is row block b. -/
theorem adj_rows1 (c : Dev nD) (t : Fin cfg0.N) (ht : 25 ≤ t.val) (r : Fin 400) (k : Fin 10000) :
    iblk m c 0 t (ix2 r k)
      = m ((c.tc : Thread nD τ).loc main_arg1)
          (ix2 (⟨400 * (t.val - 25) + r.val, by have h50 : t.val < 50 := lt_of_lt_of_eq t.isLt N50; omega⟩ : Fin 10000) k) := by
  have h50 : t.val < 50 := lt_of_lt_of_eq t.isLt N50
  have hmod : t.val % 25 = t.val - 25 := by omega
  refine (blk_adj m c t r k).trans ((congrFun (V_main_arg1 m c) _).trans ?_)
  refine congrArg (m ((c.tc : Thread nD τ).loc main_arg1)) (congrArg (fun p => ix2 p k) (Fin.ext ?_))
  show 400 * (t.val % 25) + r.val = 400 * (t.val - 25) + r.val
  rw [hmod]

/-- The result's block at point 25 + b is rows 400 b … 400 b + 399 of the network's result. -/
theorem out6_eq (c : Dev nD) (t : Fin cfg0.N) (ht : 25 ≤ t.val) (r : Fin 400) (j : Fin 128) :
    out6 m c t (ix2 r j)
      = Gm m c (ix2 (⟨400 * (t.val - 25) + r.val, by have h50 : t.val < 50 := lt_of_lt_of_eq t.isLt N50; omega⟩ : Fin 10000) j) := by
  have h50 : t.val < 50 := lt_of_lt_of_eq t.isLt N50
  show k0_pay3 (F := Ideal) (iblk m c 0 t) (S2 m c) (iblk m c 5 t) (ix2 r j) = _
  rw [S2_eq]
  exact pay3_block _ (m ((c.tc : Thread nD τ).loc main_arg1)) _ _ _ (m ((c.tc : Thread nD τ).loc main_arg5)) (t.val - 25) (by omega)
    (iblk m c 0 t) (iblk m c 5 t) (fun r k => adj_rows1 m c t ht r k) (fun l => blk_b2 m c t l) r j

/-- The same at any index of the block: the network's result where the block sits in the array. -/
theorem out6_at (c : Dev nD) (t : Fin cfg0.N) (ht : 25 ≤ t.val) (j : S400x128.Idx) :
    out6 m c t j = Gm m c (((cfg0.win 6).blk t).view.emb j) := by
  have h50 : t.val < 50 := lt_of_lt_of_eq t.isLt N50
  refine (congrArg (out6 m c t) (eq_ix2 j)).trans ((out6_eq m c t ht (j 0) (j 1)).trans ?_)
  refine congrArg (Gm m c) ?_
  funext a; apply Fin.ext
  match a with
  | ⟨0, _⟩ =>
    show 400 * (t.val - 25) + (j 0).val = win0_6.index t (0 : Fin 2) * 400 + 1 * (j 0).val
    rw [index6_0 t ht]; omega
  | ⟨1, _⟩ =>
    show (j 1).val = win0_6.index t (1 : Fin 2) * 128 + 1 * (j 1).val
    rw [index6_1 t]; omega

/-- What a point of phase 1 writes back is its block of the network's result. -/
theorem flushed_eq (c : Dev nD) (t : Fin cfg0.N) (hf : (cfg0.win 6).flush t = true) :
    (dats m 0 c).flushed 6 t = ((cfg0.win 6).blk t).view.read (Elt Ideal) (Gm m c) := by
  have ht : 25 ≤ t.val := of_decide_eq_true ((flush6 t).symm.trans hf)
  show (cfg0.win 6).cut (grid0.coords t) ((dats m 0 c).after 6 t) = _
  rw [after_out6]
  funext j
  exact out6_at m c t ht j

/-! ## The blocks of phase 1 fill the result array -/

/-- An index of the result array is in point t's block iff each coordinate is in the block's range on its axis. -/
theorem mem_blk (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v2).slice (win0_6.rect t)).set ↔ _
  rw [View.set_slice_whole, Rect.mem_set_unit]
  exact Iff.rfl

/-- Row v of the result is written back by point 25 + v / 400. -/
theorem cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  obtain ⟨t, htv⟩ : ∃ t : Fin cfg0.N, t.val = 25 + (i 0).val / 400 := ⟨⟨25 + (i 0).val / 400, by rw [N50]; omega⟩, rfl⟩
  have ht : 25 ≤ t.val := by omega
  refine ⟨t, (flush6 t).trans (decide_eq_true ht), ?_⟩
  rw [mem_blk]
  intro a
  match a with
  | ⟨0, _⟩ =>
    show win0_6.index t (0 : Fin 2) * 400 ≤ (i 0).val ∧ (i 0).val < win0_6.index t (0 : Fin 2) * 400 + 400
    rw [index6_0 t ht]; omega
  | ⟨1, _⟩ =>
    show win0_6.index t (1 : Fin 2) * 128 ≤ (i 1).val ∧ (i 1).val < win0_6.index t (1 : Fin 2) * 128 + 128
    rw [index6_1 t]; omega

/-- The result array after the run is the network's result. -/
theorem final (c : Dev nD) : (dats m 0 c).arrAt 6 cfg0.N = Gm m c :=
  (dats m 0 c).arrAt_eq_of_cover 6 (Gm m c) (fun t hf => flushed_eq m c t hf) cover

/-! ## The run, read -/

/-- Every weakly fair execution ends with the result array at the network's result of the six argument arrays and the
    six argument arrays unchanged. -/
theorem run : θ_run defs (onTc (τ := τ) (main (F := Ideal))) ⟨m, fun _ => 0, ρ⟩ fun r => ∀ c : Dev nD,
      r.2.mem ((c.tc : Thread nD τ).loc main_v2) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.RefValue

end
-- ==== Proof.RefIsG.lean ====
/-
  The reference program's result, read one operation at a time, is the network function of the specification.
-/
import proofs.«143349_g27754078666885_cont_9to1_584_18_alg».proof.Proof.Gen.ReferenceIdeal.Read
import proofs.«143349_g27754078666885_cont_9to1_584_18_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.GcnSpec
open Idealize.ShloMosaic Idealize.ShloMosaic.ValueIdx
open scoped BigOperators

/-! ## The index functions of the products and broadcasts, in coordinates

Each product reads its left operand at (row of the result, k) and its right operand at (k, column of the result);
each bias broadcast reads the bias at the result's column. -/

theorem lidx_v0_eq (i : S10000x128.Idx) (k : Fin 128) : lidx_main_v0 i k = ix2 (i 0) k :=
  funext fun a => by match a with | ⟨0, _⟩ => rfl | ⟨1, _⟩ => rfl
theorem ridx_v0_eq (i : S10000x128.Idx) (k : Fin 128) : ridx_main_v0 i k = ix2 k (i 1) :=
  funext fun a => by match a with | ⟨0, _⟩ => rfl | ⟨1, _⟩ => rfl
theorem lidx_v1_eq (i : S10000x128.Idx) (k : Fin 10000) : lidx_main_v1 i k = ix2 (i 0) k :=
  funext fun a => by match a with | ⟨0, _⟩ => rfl | ⟨1, _⟩ => rfl
theorem ridx_v1_eq (i : S10000x128.Idx) (k : Fin 10000) : ridx_main_v1 i k = ix2 k (i 1) :=
  funext fun a => by match a with | ⟨0, _⟩ => rfl | ⟨1, _⟩ => rfl
theorem lidx_v6_eq (i : S10000x128.Idx) (k : Fin 128) : lidx_main_v6 i k = ix2 (i 0) k :=
  funext fun a => by match a with | ⟨0, _⟩ => rfl | ⟨1, _⟩ => rfl
theorem ridx_v6_eq (i : S10000x128.Idx) (k : Fin 128) : ridx_main_v6 i k = ix2 k (i 1) :=
  funext fun a => by match a with | ⟨0, _⟩ => rfl | ⟨1, _⟩ => rfl
theorem lidx_v7_eq (i : S10000x128.Idx) (k : Fin 10000) : lidx_main_v7 i k = ix2 (i 0) k :=
  funext fun a => by match a with | ⟨0, _⟩ => rfl | ⟨1, _⟩ => rfl
theorem ridx_v7_eq (i : S10000x128.Idx) (k : Fin 10000) : ridx_main_v7 i k = ix2 k (i 1) :=
  funext fun a => by match a with | ⟨0, _⟩ => rfl | ⟨1, _⟩ => rfl
theorem idx_v2_v3_eq (i : S10000x128.Idx) : idx_main_v2 (idx_main_v3 i) = ix1 (i 1) :=
  funext fun a => by match a with | ⟨0, _⟩ => rfl
theorem idx_v8_v9_eq (i : S10000x128.Idx) : idx_main_v8 (idx_main_v9 i) = ix1 (i 1) :=
  funext fun a => by match a with | ⟨0, _⟩ => rfl

/-! ## The two broadcast zeros and the two broadcast biases -/

/-- The first cut's constant is zero at every index. -/
theorem call0_zero (i : S10000x128.Idx) : val_main_call0_v0 (F := Ideal) i = (0 : EReal) := by
  rw [val_main_call0_v0_apply, val_main_call0_cst_apply]
  exact Ideal.ofBits_zero_f32

/-- The second cut's constant is zero at every index. -/
theorem call1_zero (i : S10000x128.Idx) : val_main_call1_v0 (F := Ideal) i = (0 : EReal) := by
  rw [val_main_call1_v0_apply, val_main_call1_cst_apply]
  exact Ideal.ofBits_zero_f32

/-- The first bias, broadcast to every row, is the bias at the column. -/
theorem v3_at (x3 : (⟨S128, .f32⟩ : BufTy).Contents (Elt Ideal)) (i : S10000x128.Idx) :
    val_main_v3 (F := Ideal) x3 i = x3 (ix1 (i 1)) := by
  rw [val_main_v3_apply, val_main_v2_apply, idx_v2_v3_eq]
  rfl

/-- The second bias, broadcast to every row, is the bias at the column. -/
theorem v9_at (x5 : (⟨S128, .f32⟩ : BufTy).Contents (Elt Ideal)) (i : S10000x128.Idx) :
    val_main_v9 (F := Ideal) x5 i = x5 (ix1 (i 1)) := by
  rw [val_main_v9_apply, val_main_v8_apply, idx_v8_v9_eq]
  rfl

/-! ## The stages, as whole arrays -/

/-- x · W1. -/
theorem v0_eq (x0 : (⟨S10000x128, .f32⟩ : BufTy).Contents (Elt Ideal)) (x2 : (⟨S128x128, .f32⟩ : BufTy).Contents (Elt Ideal)) :
    val_main_v0 (F := Ideal) x0 x2 = support1 x0 x2 := by
  funext i
  rw [val_main_v0_apply]
  show _ = ∑ l : Fin 128, x0 (ix2 (i 0) l) * x2 (ix2 l (i 1))
  refine Finset.sum_congr rfl fun k _ => ?_
  rw [lidx_v0_eq, ridx_v0_eq]
  rfl

/-- adj · (x · W1). -/
theorem v1_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = mm x1 (support1 x0 x2) := by
  funext i
  rw [val_main_v1_apply, v0_eq]
  show _ = ∑ l : Fin 10000, x1 (ix2 (i 0) l) * support1 x0 x2 (ix2 l (i 1))
  refine Finset.sum_congr rfl fun k _ => ?_
  rw [lidx_v1_eq, ridx_v1_eq]
  rfl

/-- The first layer: bias added to every row, cut at zero. -/
theorem v5_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = act (mm x1 (support1 x0 x2)) x3 := by
  funext i
  rw [val_main_v5_apply, val_main_v4_apply, v1_eq, v3_at, call0_zero]
  rfl

/-- The second layer's projected features. -/
theorem v6_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v6 (F := Ideal) x0 x1 x2 x3 x4 = support2 x0 x1 x2 x3 x4 := by
  funext i
  rw [val_main_v6_apply, v5_eq]
  show _ = ∑ l : Fin 128, act (mm x1 (support1 x0 x2)) x3 (ix2 (i 0) l) * x4 (ix2 l (i 1))
  refine Finset.sum_congr rfl fun k _ => ?_
  rw [lidx_v6_eq, ridx_v6_eq]
  rfl

/-- adj times the second layer's projected features. -/
theorem v7_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v7 (F := Ideal) x0 x1 x2 x3 x4 = mm x1 (support2 x0 x1 x2 x3 x4) := by
  funext i
  rw [val_main_v7_apply, v6_eq]
  show _ = ∑ l : Fin 10000, x1 (ix2 (i 0) l) * support2 x0 x1 x2 x3 x4 (ix2 l (i 1))
  refine Finset.sum_congr rfl fun k _ => ?_
  rw [lidx_v7_eq, ridx_v7_eq]
  rfl

/-- The reference program's last stage is the network function of the six arguments. -/
theorem ref_is_G (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    Cert.ReferenceIdeal.Read.val_main_v11 (F := Ideal) x0 x1 x2 x3 x4 x5 = Cert.GcnSpec.G x0 x1 x2 x3 x4 x5 := by
  funext i
  rw [val_main_v11_apply, val_main_v10_apply, v7_eq, v9_at, call1_zero]
  rfl

end Cert.ReferenceIdeal.RefValue

end
-- ==== Proof.lean ====
/-
  A two-layer dense graph convolution,  out = act (adj · (act (adj · (x · W1)) b1 · W2)) b2  with  act z b = max (z + b, 0)
  row-wise, computed by ONE kernel launch over a grid of 2 phases × 25 row blocks of 400 rows, against the same formula
  written with whole-array products.

  The kernel keeps two scratch buffers across the grid. At the first point it stores  S1 = x · W1  into the first. At point
  b of phase 0 it stores rows 400 b … 400 b + 399 of  S2 = act (adj · S1) b1 · W2  into the second (the adjacency row block
  A_b times S1, bias, cut at zero, times W2). At point b of phase 1 it stores  act (A_b · S2) b2  into the result's staging
  block, which is written back as row block b of the result; through phase 0 that staging block is idle and is never
  written back. So the result array ends, row block by row block, at  act (adj · S2) b2 : the specification's network
  function (Proof/Spec.lean), with every sum in the same grouping as the reference's — no law of the extended reals is
  needed, and the finiteness precondition is not used.

  * The frames of the two kernel programs (word level and exact): the launch side is generated; the body is run by hand
    once per case (Proof/Runs*.lean), the scratch contents are carried by an invariant (S1 exactly; S2 on the rows filled
    so far), and the library's tracking frame run concludes (Proof/Body*.lean). The argument is the same at both instances.
  * The reference's frame: its generated run with the result dropped.
  * The idealization rewrote nothing: the ledger is empty.
  * The value: the result array after the run is the specification's function of the arguments (Proof/KernelValue.lean,
    over the block lemmas of Proof/BlocksIdeal.lean, Proof/BlockValue.lean, Proof/PayValue.lean); the reference's run
    ends at the same function (Proof/RefIsG.lean, over the generated read-at-an-index lemmas).
-/
import proofs.«143349_g27754078666885_cont_9to1_584_18_alg».proof.Defs
import proofs.«143349_g27754078666885_cont_9to1_584_18_alg».proof.Proof.Gen.Kernel
import proofs.«143349_g27754078666885_cont_9to1_584_18_alg».proof.Proof.Gen.KernelIdeal
import proofs.«143349_g27754078666885_cont_9to1_584_18_alg».proof.Proof.Gen.ReferenceIdeal
import proofs.«143349_g27754078666885_cont_9to1_584_18_alg».proof.Proof.Gen.Pre_finite_inputs
import proofs.«143349_g27754078666885_cont_9to1_584_18_alg».proof.Proof.BodyBits
import proofs.«143349_g27754078666885_cont_9to1_584_18_alg».proof.Proof.KernelValue
import proofs.«143349_g27754078666885_cont_9to1_584_18_alg».proof.Proof.RefIsG
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame m ρ

/-- So does the exact one. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the two kernel programs. -/
theorem preserves : Cert.preserves_Kernel_KernelIdeal := trivial

/-- Both exact programs end at the specification's network function of the (agreeing) arguments. -/
theorem algebraic : Cert.algebraic_KernelIdeal_ReferenceIdeal := by
  intro m ρ m' ρ' _ hagree
  refine ⟨fun c => Cert.KernelIdeal.RefValue.Gm m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v11_eq _ _ _ _ _ _).trans (Cert.ReferenceIdeal.RefValue.ref_is_G _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
